-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S768x32000 : Shape := ⟨2, ![768, 32000]⟩
abbrev S768 : Shape := ⟨1, ![768]⟩
abbrev S768x3 : Shape := ⟨2, ![768, 3]⟩
abbrev S1x2048x768 : Shape := ⟨3, ![1, 2048, 768]⟩
abbrev S_ : Shape := ⟨0, ![]⟩

class Facts : Prop where
  bcast_S_S768x32000 : S_.BroadcastsInDim S768x32000 (![] : Fin 0 → Fin S768x32000.rank)
  reducesTo_S768x32000_S_d0_1 : S768x32000.ReducesTo [0, 1] S_
  h_S_ : 0 < S_.numel
  bcast_S_S768 : S_.BroadcastsInDim S768 (![] : Fin 0 → Fin S768.rank)
  reducesTo_S768_S_d0 : S768.ReducesTo [0] S_
  bcast_S_S768x3 : S_.BroadcastsInDim S768x3 (![] : Fin 0 → Fin S768x3.rank)
  reducesTo_S768x3_S_d0_1 : S768x3.ReducesTo [0, 1] S_
  bcast_S_S1x2048x768 : S_.BroadcastsInDim S1x2048x768 (![] : Fin 0 → Fin S1x2048x768.rank)
  reducesTo_S1x2048x768_S_d0_1_2 : S1x2048x768.ReducesTo [0, 1, 2] S_

variable [Facts]

def fn_part1 {F : FTy → Type} [FloatOps F] (main_arg6 : FVec F S1x2048x768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S1x2048x768 .f32 := Host.absf main_arg6
  let main_cst_6 : FVec F S_ .f32 := constant S_ .f32 0x7F800000#32
  let main_v20 : FVec F S1x2048x768 .f32 := broadcastInDim S1x2048x768 ![] bcast_S_S1x2048x768 main_cst_6
  let main_v21 : IVec S1x2048x768 1 := cmpf .olt main_v19 main_v20
  let main_c_7 : IVec S_ 1 := constantI S_ 1 1#1
  let main_v22 : IVec S_ 1 := (fun x v => Host.reduce IntOp.andi x v reducesTo_S1x2048x768_S_d0_1_2 h_S_) main_v21 main_c_7
  let main_v23 : IVec S_ 1 := andi main_v18 main_v22
  main_v23

def fn {F : FTy → Type} [FloatOps F] (main_arg0 : IVec S16x2048 32) (main_arg1 : IVec S16x2048 32) (main_arg2 : FVec F S768x32000 .f32) (main_arg3 : FVec F S768 .f32) (main_arg4 : FVec F S768x3 .f32) (main_arg5 : FVec F S768 .f32) (main_arg6 : FVec F S1x2048x768 .f32) : IVec S_ 1 :=
  let main_v0 : FVec F S768x32000 .f32 := Host.absf main_arg2
  let main_cst : FVec F S_ .f32 := constant S_ .f32 0x7F800000#32
  let main_v1 : FVec F S768x32000 .f32 := broadcastInDim S768x32000 ![] bcast_S_S768x32000 main_cst
  let main_v2 : IVec S768x32000 1 := cmpf .olt main_v0 main_v1
  let main_c : IVec S_ 1 := constantI S_ 1 1#1
  let main_v3 : IVec S_ 1 := (fun x v => Host.reduce IntOp.andi x v reducesTo_S768x32000_S_d0_1 h_S_) main_v2 main_c
  let main_v4 : FVec F S768 .f32 := Host.absf main_arg3
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768x3 .f32 := Host.absf main_arg4
  let main_cst_2 : FVec F S_ .f32 := constant S_ .f32 0x7F800000#32
  let main_v10 : FVec F S768x3 .f32 := broadcastInDim S768x3 ![] bcast_S_S768x3 main_cst_2
  let main_v11 : IVec S768x3 1 := cmpf .olt main_v9 main_v10
  let main_c_3 : IVec S_ 1 := constantI S_ 1 1#1
  let main_v12 : IVec S_ 1 := (fun x v => Host.reduce IntOp.andi x v reducesTo_S768x3_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg6 main_v13 main_v16
-- ==== Kernel.lean ====
abbrev S16x2048 : Shape := ⟨2, ![16, 2048]⟩
abbrev S768x32000 : Shape := ⟨2, ![768, 32000]⟩
abbrev S768 : Shape := ⟨1, ![768]⟩
abbrev S768x3 : Shape := ⟨2, ![768, 3]⟩
abbrev S1x2048x768 : Shape := ⟨3, ![1, 2048, 768]⟩
abbrev S16x2048x1 : Shape := ⟨3, ![16, 2048, 1]⟩
abbrev S768x1 : Shape := ⟨2, ![768, 1]⟩
abbrev S1x1x768 : Shape := ⟨3, ![1, 1, 768]⟩
abbrev S16x2048x768 : Shape := ⟨3, ![16, 2048, 768]⟩
abbrev S1x512x1 : Shape := ⟨3, ![1, 512, 1]⟩
abbrev S1x512x768 : Shape := ⟨3, ![1, 512, 768]⟩

abbrev nBuf : Space → Nat
  | .hbm => 18
  | .vmem => 10
  | .smem => 0
  | _ => 0

abbrev bufTy : (tb : Table) → Fin (tcTables nBuf tb) → BufTy
  | .hbm, ⟨0, _⟩ => ⟨S16x2048, .i32⟩
  | .hbm, ⟨1, _⟩ => ⟨S16x2048, .i32⟩
  | .hbm, ⟨2, _⟩ => ⟨S768x32000, .f32⟩
  | .hbm, ⟨3, _⟩ => ⟨S768, .f32⟩
  | .hbm, ⟨4, _⟩ => ⟨S768x3, .f32⟩
  | .hbm, ⟨5, _⟩ => ⟨S768, .f32⟩
  | .hbm, ⟨6, _⟩ => ⟨S1x2048x768, .f32⟩
  | .hbm, ⟨7, _⟩ => ⟨S16x2048x1, .i32⟩
  | .hbm, ⟨8, _⟩ => ⟨S16x2048x1, .i32⟩
  | .hbm, ⟨9, _⟩ => ⟨S768x1, .f32⟩
  | .hbm, ⟨10, _⟩ => ⟨S768, .f32⟩
  | .hbm, ⟨11, _⟩ => ⟨S768, .f32⟩
  | .hbm, ⟨12, _⟩ => ⟨S1x1x768, .f32⟩
  | .hbm, ⟨13, _⟩ => ⟨S768x1, .f32⟩
  | .hbm, ⟨14, _⟩ => ⟨S768, .f32⟩
  | .hbm, ⟨15, _⟩ => ⟨S768, .f32⟩
  | .hbm, ⟨16, _⟩ => ⟨S1x1x768, .f32⟩
  | .hbm, ⟨17, _⟩ => ⟨S16x2048x768, .f32⟩
  | .local _ .vmem, ⟨0, _⟩ => ⟨S1x512x1, .i32⟩
  | .local _ .vmem, ⟨1, _⟩ => ⟨S1x512x1, .i32⟩
  | .local _ .vmem, ⟨2, _⟩ => ⟨S1x512x1, .i32⟩
  | .local _ .vmem, ⟨3, _⟩ => ⟨S1x512x1, .i32⟩
  | .local _ .vmem, ⟨4, _⟩ => ⟨S1x512x768, .f32⟩
  | .local _ .vmem, ⟨5, _⟩ => ⟨S1x512x768, .f32⟩
  | .local _ .vmem, ⟨6, _⟩ => ⟨S1x1x768, .f32⟩
  | .local _ .vmem, ⟨7, _⟩ => ⟨S1x1x768, .f32⟩
  | .local _ .vmem, ⟨8, _⟩ => ⟨S1x512x768, .f32⟩
  | .local _ .vmem, ⟨9, _⟩ => ⟨S1x512x768, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16x2048_S16x2048x1 : S16x2048.ShapeCasts S16x2048x1
  slices_S768x32000_S768x1_0_0 : S768x32000.Slices ![0, 0] S768x1
  shapeCasts_S768x1_S768 : S768x1.ShapeCasts S768
  shapeCasts_S768_S1x1x768 : S768.ShapeCasts S1x1x768
  slices_S768x3_S768x1_0_0 : S768x3.Slices ![0, 0] S768x1
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  natLt_1_32 : 1 < 32
  inb_S1x512x768_S1x512x768_0_0_0 : ∀ a, (![0, 0, 0] : Fin 3 → Nat) a + S1x512x768.size a ≤ S1x512x768.size a
  h_S1x512x768 : 0 < S1x512x768.numel
  inb_S1x1x768_S1x1x768_0_0_0 : ∀ a, (![0, 0, 0] : Fin 3 → Nat) a + S1x1x768.size a ≤ S1x1x768.size a
  h_S1x1x768 : 0 < S1x1x768.numel
  shapeCasts_S1x1x768_S1x1x768 : S1x1x768.ShapeCasts S1x1x768
  broadcasts_S1x512x1_S1x512x768 : S1x512x1.Broadcasts S1x512x768
  broadcasts_S1x1x768_S1x512x768 : S1x1x768.Broadcasts S1x512x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S16x2048x1.size a
  hwx0_0 : ∀ i : grid0.Coords, EltTy.bits .i32 = 32 ∨ (Rect.block (s := S16x2048x1) S1x512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S16x2048x1.size a
  hwx0_1 : ∀ i : grid0.Coords, EltTy.bits .i32 = 32 ∨ (Rect.block (s := S16x2048x1) S1x512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S1x2048x768.size a
  hwx0_2 : ∀ i : grid0.Coords, EltTy.bits .f32 = 32 ∨ (Rect.block (s := S1x2048x768) S1x512x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x768.size a ≤ S1x1x768.size a
  hwx0_3 : ∀ i : grid0.Coords, EltTy.bits .f32 = 32 ∨ (Rect.block (s := S1x1x768) S1x1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x768.size a ≤ S1x1x768.size a
  hwx0_4 : ∀ i : grid0.Coords, EltTy.bits .f32 = 32 ∨ (Rect.block (s := S1x1x768) S1x1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x768.size a ≤ S16x2048x768.size a
  hwx0_5 : ∀ i : grid0.Coords, EltTy.bits .f32 = 32 ∨ (Rect.block (s := S16x2048x768) S1x512x768.size (cc0_transform_5 i) (hinb0_5 i)).WholeWords (EltTy.packing .f32)

variable [Facts₀]

abbrev win0_0 : Pipeline.Window sig grid0 :=
  Pipeline.Window.ofSpec (Memref.whole main_v0) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1x512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x512x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048 : Shape := ⟨2, ![16, 2048]⟩
abbrev S768x32000 : Shape := ⟨2, ![768, 32000]⟩
abbrev S768 : Shape := ⟨1, ![768]⟩
abbrev S768x3 : Shape := ⟨2, ![768, 3]⟩
abbrev S1x2048x768 : Shape := ⟨3, ![1, 2048, 768]⟩
abbrev S32000x768 : Shape := ⟨2, ![32000, 768]⟩
abbrev S_ : Shape := ⟨0, ![]⟩
abbrev S16x2048x1 : Shape := ⟨3, ![16, 2048, 1]⟩
abbrev S1 : Shape := ⟨1, ![1]⟩
abbrev S1x1x1 : Shape := ⟨3, ![1, 1, 1]⟩
abbrev S16x2048x768 : Shape := ⟨3, ![16, 2048, 768]⟩
abbrev S1x1x768 : Shape := ⟨3, ![1, 1, 768]⟩
abbrev S3x768 : Shape := ⟨2, ![3, 768]⟩

abbrev nBuf : Space → Nat
  | .hbm => 82
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16x2048, .i32⟩
  | .hbm, ⟨2, _⟩ => ⟨S768x32000, .f32⟩
  | .hbm, ⟨3, _⟩ => ⟨S768, .f32⟩
  | .hbm, ⟨4, _⟩ => ⟨S768x3, .f32⟩
  | .hbm, ⟨5, _⟩ => ⟨S768, .f32⟩
  | .hbm, ⟨6, _⟩ => ⟨S1x2048x768, .f32⟩
  | .hbm, ⟨7, _⟩ => ⟨S32000x768, .f32⟩
  | .hbm, ⟨8, _⟩ => ⟨S_, .i32⟩
  | .hbm, ⟨9, _⟩ => ⟨S16x2048, .i32⟩
  | .hbm, ⟨10, _⟩ => ⟨S16x2048, .i1⟩
  | .hbm, ⟨11, _⟩ => ⟨S_, .i32⟩
  | .hbm, ⟨12, _⟩ => ⟨S16x2048, .i32⟩
  | .hbm, ⟨13, _⟩ => ⟨S16x2048, .i32⟩
  | .hbm, ⟨14, _⟩ => ⟨S16x2048, .i32⟩
  | .hbm, ⟨15, _⟩ => ⟨S16x2048x1, .i32⟩
  | .hbm, ⟨16, _⟩ => ⟨S1, .i32⟩
  | .hbm, ⟨17, _⟩ => ⟨S_, .i32⟩
  | .hbm, ⟨18, _⟩ => ⟨S16x2048x1, .i32⟩
  | .hbm, ⟨19, _⟩ => ⟨S16x2048x1, .i1⟩
  | .hbm, ⟨20, _⟩ => ⟨S1x1x1, .i32⟩
  | .hbm, ⟨21, _⟩ => ⟨S16x2048x1, .i32⟩
  | .hbm, ⟨22, _⟩ => ⟨S16x2048x1, .i1⟩
  | .hbm, ⟨23, _⟩ => ⟨S16x2048x1, .i1⟩
  | .hbm, ⟨24, _⟩ => ⟨S_, .i1⟩
  | .hbm, ⟨25, _⟩ => ⟨S16x2048, .i1⟩
  | .hbm, ⟨26, _⟩ => ⟨S16x2048x768, .f32⟩
  | .hbm, ⟨27, _⟩ => ⟨S16x2048x768, .i1⟩
  | .hbm, ⟨28, _⟩ => ⟨S_, .f32⟩
  | .hbm, ⟨29, _⟩ => ⟨S16x2048x768, .f32⟩
  | .hbm, ⟨30, _⟩ => ⟨S16x2048x768, .f32⟩
  | .hbm, ⟨31, _⟩ => ⟨S1x1x768, .f32⟩
  | .hbm, ⟨32, _⟩ => ⟨S16x2048x768, .f32⟩
  | .hbm, ⟨33, _⟩ => ⟨S16x2048x768, .f32⟩
  | .hbm, ⟨34, _⟩ => ⟨S_, .i32⟩
  | .hbm, ⟨35, _⟩ => ⟨S16x2048, .i32⟩
  | .hbm, ⟨36, _⟩ => ⟨S16x2048, .i1⟩
  | .hbm, ⟨37, _⟩ => ⟨S_, .f32⟩
  | .hbm, ⟨38, _⟩ => ⟨S768, .f32⟩
  | .hbm, ⟨39, _⟩ => ⟨S16x2048x1, .i1⟩
  | .hbm, ⟨40, _⟩ => ⟨S16x2048x768, .i1⟩
  | .hbm, ⟨41, _⟩ => ⟨S16x2048x768, .f32⟩
  | .hbm, ⟨42, _⟩ => ⟨S16x2048x768, .f32⟩
  | .hbm, ⟨43, _⟩ => ⟨S3x768, .f32⟩
  | .hbm, ⟨44, _⟩ => ⟨S_, .i32⟩
  | .hbm, ⟨45, _⟩ => ⟨S16x2048, .i32⟩
  | .hbm, ⟨46, _⟩ => ⟨S16x2048, .i1⟩
  | .hbm, ⟨47, _⟩ => ⟨S_, .i32⟩
  | .hbm, ⟨48, _⟩ => ⟨S16x2048, .i32⟩
  | .hbm, ⟨49, _⟩ => ⟨S16x2048, .i32⟩
  | .hbm, ⟨50, _⟩ => ⟨S16x2048, .i32⟩
  | .hbm, ⟨51, _⟩ => ⟨S16x2048x1, .i32⟩
  | .hbm, ⟨52, _⟩ => ⟨S1, .i32⟩
  | .hbm, ⟨53, _⟩ => ⟨S_, .i32⟩
  | .hbm, ⟨54, _⟩ => ⟨S16x2048x1, .i32⟩
  | .hbm, ⟨55, _⟩ => ⟨S16x2048x1, .i1⟩
  | .hbm, ⟨56, _⟩ => ⟨S1x1x1, .i32⟩
  | .hbm, ⟨57, _⟩ => ⟨S16x2048x1, .i32⟩
  | .hbm, ⟨58, _⟩ => ⟨S16x2048x1, .i1⟩
  | .hbm, ⟨59, _⟩ => ⟨S16x2048x1, .i1⟩
  | .hbm, ⟨60, _⟩ => ⟨S_, .i1⟩
  | .hbm, ⟨61, _⟩ => ⟨S16x2048, .i1⟩
  | .hbm, ⟨62, _⟩ => ⟨S16x2048x768, .f32⟩
  | .hbm, ⟨63, _⟩ => ⟨S16x2048x768, .i1⟩
  | .hbm, ⟨64, _⟩ => ⟨S_, .f32⟩
  | .hbm, ⟨65, _⟩ => ⟨S16x2048x768, .f32⟩
  | .hbm, ⟨66, _⟩ => ⟨S16x2048x768, .f32⟩
  | .hbm, ⟨67, _⟩ => ⟨S1x1x768, .f32⟩
  | .hbm, ⟨68, _⟩ => ⟨S16x2048x768, .f32⟩
  | .hbm, ⟨69, _⟩ => ⟨S16x2048x768, .f32⟩
  | .hbm, ⟨70, _⟩ => ⟨S_, .i32⟩
  | .hbm, ⟨71, _⟩ => ⟨S16x2048, .i32⟩
  | .hbm, ⟨72, _⟩ => ⟨S16x2048, .i1⟩
  | .hbm, ⟨73, _⟩ => ⟨S_, .f32⟩
  | .hbm, ⟨74, _⟩ => ⟨S768, .f32⟩
  | .hbm, ⟨75, _⟩ => ⟨S16x2048x1, .i1⟩
  | .hbm, ⟨76, _⟩ => ⟨S16x2048x768, .i1⟩
  | .hbm, ⟨77, _⟩ => ⟨S16x2048x768, .f32⟩
  | .hbm, ⟨78, _⟩ => ⟨S16x2048x768, .f32⟩
  | .hbm, ⟨79, _⟩ => ⟨S16x2048x768, .f32⟩
  | .hbm, ⟨80, _⟩ => ⟨S16x2048x768, .f32⟩
  | .hbm, ⟨81, _⟩ => ⟨S16x2048x768, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_call1_v0 : Ref sig .tc := ⟨.hbm, 40, rfl⟩
abbrev main_call1_v1 : Ref sig .tc := ⟨.hbm, 41, rfl⟩
abbrev main_v9 : Ref sig .tc := ⟨.hbm, 42, rfl⟩
abbrev main_v10 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_c_0 : Ref sig .tc := ⟨.hbm, 70, rfl⟩
abbrev main_v15 : Ref sig .tc := ⟨.hbm, 71, rfl⟩
abbrev main_v16 : Ref sig .tc := ⟨.hbm, 72, rfl⟩
abbrev main_cst_1 : Ref sig .tc := ⟨.hbm, 73, rfl⟩
abbrev main_v17 : Ref sig .tc := ⟨.hbm, 74, rfl⟩
abbrev main_v18 : Ref sig .tc := ⟨.hbm, 75, rfl⟩
abbrev main_call3_v0 : Ref sig .tc := ⟨.hbm, 76, rfl⟩
abbrev main_call3_v1 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩

abbrev nD : Nat := 1
abbrev τ : Topo := Topo.v7x

variable {F : FTy → Type} [FloatOps F]

class Facts₀ : Prop where
  transposes_S768x32000_S32000x768_1_0 : S768x32000.Transposes [1, 0] S32000x768
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S1_S1x1x1_2 : S1.BroadcastsInDim S1x1x1 (![2] : Fin 1 → Fin S1x1x1.rank)
  bcast_S1x1x1_S16x2048x1_0_1_2 : S1x1x1.BroadcastsInDim S16x2048x1 (![0, 1, 2] : Fin 3 → Fin S16x2048x1.rank)
  reducesTo_S16x2048x1_S16x2048_d2 : S16x2048x1.ReducesTo [2] S16x2048
  h_S_ : 0 < S_.numel
  bcast_S16x2048_S16x2048x768_0_1 : S16x2048.BroadcastsInDim S16x2048x768 (![0, 1] : Fin 2 → Fin S16x2048x768.rank)
  bcast_S_S16x2048x768 : S_.BroadcastsInDim S16x2048x768 (![] : Fin 0 → Fin S16x2048x768.rank)
  bcast_S768_S1x1x768_2 : S768.BroadcastsInDim S1x1x768 (![2] : Fin 1 → Fin S1x1x768.rank)
  bcast_S1x1x768_S16x2048x768_0_1_2 : S1x1x768.BroadcastsInDim S16x2048x768 (![0, 1, 2] : Fin 3 → Fin S16x2048x768.rank)
  bcast_S_S768 : S_.BroadcastsInDim S768 (![] : Fin 0 → Fin S768.rank)
  bcast_S16x2048x1_S16x2048x768_0_1_2 : S16x2048x1.BroadcastsInDim S16x2048x768 (![0, 1, 2] : Fin 3 → Fin S16x2048x768.rank)
  bcast_S768_S16x2048x768_2 : S768.BroadcastsInDim S16x2048x768 (![2] : Fin 1 → Fin S16x2048x768.rank)
  transposes_S768x3_S3x768_1_0 : S768x3.Transposes [1, 0] S3x768
  bcast_S1x2048x768_S16x2048x768_0_1_2 : S1x2048x768.BroadcastsInDim S16x2048x768 (![0, 1, 2] : Fin 3 → Fin S16x2048x768.rank)
  gather_S32000x768_S16x2048x1_S16x2048x768_2_0_n_n_0_2_1768_wf : GatherDims.WF S32000x768 S16x2048x1 S16x2048x768 [2] [0] [] [0] [] 2 ![1, 768]
  gather_S3x768_S16x2048x1_S16x2048x768_2_0_n_n_0_2_1768_wf : GatherDims.WF S3x768 S16x2048x1 S16x2048x768 [2] [0] [] [0] [] 2 ![1, 768]

variable [Facts₀]

def gather_S32000x768_S16x2048x1_S16x2048x768_2_0_n_n_0_2_1768 : GatherDims S32000x768 S16x2048x1 S16x2048x768 where
  offsetDims := [2]
  collapsedSliceDims := [0]
  operandBatchingDims := []
  startIndicesBatchingDims := []
  startIndexMap := [0]
  indexVectorDim := 2
  sliceSizes := ![1, 768]
  wf := gather_S32000x768_S16x2048x1_S16x2048x768_2_0_n_n_0_2_1768_wf
def gather_S3x768_S16x2048x1_S16x2048x768_2_0_n_n_0_2_1768 : GatherDims S3x768 S16x2048x1 S16x2048x768 where
  offsetDims := [2]
  collapsedSliceDims := [0]
  operandBatchingDims := []
  startIndicesBatchingDims := []
  startIndexMap := [0]
  indexVectorDim := 2
  sliceSizes := ![1, 768]
  wf := gather_S3x768_S16x2048x1_S16x2048x768_2_0_n_n_0_2_1768_wf

class Facts : Prop extends Facts₀ where

variable [Facts]
-- ==== Proof.KernelBlocks.lean ====
/-
  The idealized kernel's output array as ONE function of the arrays its region finds.

  The grid is `(st, b)`, 4 sequence tiles of 512 positions by 16 batch rows. At the point `(st, b)` the body sees rows
  `[512·st, 512·st + 512)` of batch row `b` of the two id arrays (as columns `[1, 512, 1]`), the same rows of the positional
  table (batch row 0 of it), and the two `[1, 1, 768]` vectors whole, and stores the `[1, 512, 768]` block at block index
  `(b, st, 0)` of the output. Every entry of that block is the same expression of the arrays at the entry's own array
  index `(b, s, d)`: the positional entry `(0, s, d)`, the id entries `(b, s, 0)`, the vectors' entries `(0, 0, d)`. So the
  block is a block of `blockFn` below, the 64 blocks tile the output, and the output array after the run is `blockFn`.
-/
import proofs.«127489_j68899865362566_1_alg».proof.Proof.KernelValueLeg
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The output array as a function of the five arrays the region finds: at `(b, s, d)`,
    `(pe[0, s, d] + float(ids[b, s, 0] == 0) · tok0[0, 0, d]) + float(seg[b, s, 0] == 0) · seg0[0, 0, d]`. -/
def blockFn (ids3 seg3 : S16x2048x1.Idx → Elt F .i32) (pe : S1x2048x768.Idx → Elt F .f32)
    (tok0 seg0 : S1x1x768.Idx → Elt F .f32) : S16x2048x768.Idx → Elt F .f32 := fun i =>
  FloatOps.addf
    (FloatOps.addf (pe (ix3 (0 : Fin 1) (i 1) (i 2)))
      (FloatOps.mulf (FloatOps.sitofp .f32 ((IntOp.cmpi .eq (ids3 (ix3 (i 0) (i 1) (0 : Fin 1))) 0#32).setWidth 32))
        (tok0 (ix3 (0 : Fin 1) (0 : Fin 1) (i 2)))))
    (FloatOps.mulf (FloatOps.sitofp .f32 ((IntOp.cmpi .eq (seg3 (ix3 (i 0) (i 1) (0 : Fin 1))) 0#32).setWidth 32))
      (seg0 (ix3 (0 : Fin 1) (0 : Fin 1) (i 2))))

theorem zeros3 : (![0, 0, 0] : Fin 3 → Nat) = fun _ => 0 := funext fun a => by fin_cases a <;> rfl

/-- The printed index maps over the 64 grid points: the id windows move with the output window on the batch and the
    sequence axes, the positional window on the sequence axis only, the two vectors' windows stay at block 0; the output's
    block index is `(b, st, 0)` with `b ≤ 15`, `st ≤ 3`. -/
theorem index_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 3) = 0 ∧ win0_2.index t (1 : Fin 3) = win0_5.index t (1 : Fin 3) ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (2 : Fin 3) = 0 ∧ win0_5.index t (0 : Fin 3) ≤ 15 ∧ win0_5.index t (1 : Fin 3) ≤ 3 :=
  (by decide +kernel : ∀ t : Fin grid0.N, _)

/-- Every block index `(b, st, 0)` of the output is some point's. -/
theorem index_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-- The body's result for the output window, at a block index `j`, over arbitrary loaded blocks: the sum
    `(x2 + float(x0 == 0) · x3) + float(x1 == 0) · x4` with every block read where `j` lies under it — the id columns
    at `(0, j₁, 0)`, the positional block at `j`, the two vectors at `(0, 0, j₂)`. -/
theorem out_apply (x0 x1 : Vec F S1x512x1 .i32) (x2 : Vec F S1x512x768 .f32) (x3 x4 : Vec F S1x1x768 .f32) (j : S1x512x768.Idx) :
    out0_5 x0 x1 x2 x3 x4 j = ValueP.E5 x2 x0 x3 x1 x4 j := by
  unfold out0_5
  simp only [View.ld_unit_zero (S := S1x512x1) zeros3, View.ld_unit_zero (S := S1x512x768) zeros3,
    View.ld_unit_zero (S := S1x1x768) zeros3]
  exact ValueP.canon5_eq x2 x0 x3 x1 x4 j

/-! ## Where each input block's entry sits in its array

At the point `t` the output block's entry `j` sits at the array index `e = (b, 512·st + j₁, j₂)`. The entries of the input
blocks the body reads for it sit at `(0, e₁, e₂)` of the positional table, `(e₀, e₁, 0)` of either id array and
`(0, 0, e₂)` of either vector: a block's coordinate on an axis is its block index times the block's extent plus the
coordinate inside the block, and the block indices are related as `index_facts` says. -/

theorem emb_pe (t : Fin cfg0.N) (j : S1x512x768.Idx) : ((cfg0.win 2).blk t).view.emb (ValueP.ix5_0 j)
      = ix3 (0 : Fin 1) ((((cfg0.win 5).blk t).view.emb j) 1) ((((cfg0.win 5).blk t).view.emb j) 2) := by
  obtain ⟨a0, a1, a2, b0, b1, b2, p0, p1, p2, u0, u1, u2, v0, v1, v2, o2, o0, o1⟩ := index_facts t
  funext a; apply Fin.ext
  match a with
  | ⟨0, _⟩ => show win0_2.index t (0 : Fin 3) * 1 + 1 * 0 = 0; omega
  | ⟨1, _⟩ => show win0_2.index t (1 : Fin 3) * 512 + 1 * (j 1).val = win0_5.index t (1 : Fin 3) * 512 + 1 * (j 1).val; omega
  | ⟨2, _⟩ => show win0_2.index t (2 : Fin 3) * 768 + 1 * (j 2).val = win0_5.index t (2 : Fin 3) * 768 + 1 * (j 2).val; omega

theorem emb_ids (t : Fin cfg0.N) (j : S1x512x768.Idx) : ((cfg0.win 0).blk t).view.emb (ValueP.ix5_1 j)
      = ix3 ((((cfg0.win 5).blk t).view.emb j) 0) ((((cfg0.win 5).blk t).view.emb j) 1) (0 : Fin 1) := by
  obtain ⟨a0, a1, a2, b0, b1, b2, p0, p1, p2, u0, u1, u2, v0, v1, v2, o2, o0, o1⟩ := index_facts t
  have hj0 : (j 0).val < 1 := (j 0).isLt
  funext a; apply Fin.ext
  match a with
  | ⟨0, _⟩ => show win0_0.index t (0 : Fin 3) * 1 + 1 * 0 = win0_5.index t (0 : Fin 3) * 1 + 1 * (j 0).val; omega
  | ⟨1, _⟩ => show win0_0.index t (1 : Fin 3) * 512 + 1 * (j 1).val = win0_5.index t (1 : Fin 3) * 512 + 1 * (j 1).val; omega
  | ⟨2, _⟩ => show win0_0.index t (2 : Fin 3) * 1 + 1 * 0 = 0; omega

theorem emb_seg (t : Fin cfg0.N) (j : S1x512x768.Idx) : ((cfg0.win 1).blk t).view.emb (ValueP.ix5_3 j)
      = ix3 ((((cfg0.win 5).blk t).view.emb j) 0) ((((cfg0.win 5).blk t).view.emb j) 1) (0 : Fin 1) := by
  obtain ⟨a0, a1, a2, b0, b1, b2, p0, p1, p2, u0, u1, u2, v0, v1, v2, o2, o0, o1⟩ := index_facts t
  have hj0 : (j 0).val < 1 := (j 0).isLt
  funext a; apply Fin.ext
  match a with
  | ⟨0, _⟩ => show win0_1.index t (0 : Fin 3) * 1 + 1 * 0 = win0_5.index t (0 : Fin 3) * 1 + 1 * (j 0).val; omega
  | ⟨1, _⟩ => show win0_1.index t (1 : Fin 3) * 512 + 1 * (j 1).val = win0_5.index t (1 : Fin 3) * 512 + 1 * (j 1).val; omega
  | ⟨2, _⟩ => show win0_1.index t (2 : Fin 3) * 1 + 1 * 0 = 0; omega

theorem emb_tok (t : Fin cfg0.N) (j : S1x512x768.Idx) : ((cfg0.win 3).blk t).view.emb (ValueP.ix5_2 j)
      = ix3 (0 : Fin 1) (0 : Fin 1) ((((cfg0.win 5).blk t).view.emb j) 2) := by
  obtain ⟨a0, a1, a2, b0, b1, b2, p0, p1, p2, u0, u1, u2, v0, v1, v2, o2, o0, o1⟩ := index_facts t
  funext a; apply Fin.ext
  match a with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 768 + 1 * (j 2).val = win0_5.index t (2 : Fin 3) * 768 + 1 * (j 2).val; omega

theorem emb_sg0 (t : Fin cfg0.N) (j : S1x512x768.Idx) : ((cfg0.win 4).blk t).view.emb (ValueP.ix5_4 j)
      = ix3 (0 : Fin 1) (0 : Fin 1) ((((cfg0.win 5).blk t).view.emb j) 2) := by
  obtain ⟨a0, a1, a2, b0, b1, b2, p0, p1, p2, u0, u1, u2, v0, v1, v2, o2, o0, o1⟩ := index_facts t
  funext a; apply Fin.ext
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 768 + 1 * (j 2).val = win0_5.index t (2 : Fin 3) * 768 + 1 * (j 2).val; omega

/-- One block entry over arbitrary arrays: the body's sum of the five blocks cut from the arrays at the point `t`, at the
    block index `j`, is `blockFn` of the arrays at the array index of `j`. -/
theorem block_read (A0 A1 : S16x2048x1.Idx → Elt F .i32) (A2 : S1x2048x768.Idx → Elt F .f32)
    (A3 A4 : S1x1x768.Idx → Elt F .f32) (t : Fin cfg0.N) (j : S1x512x768.Idx) :
    ValueP.E5 (fun y => A2 (((cfg0.win 2).blk t).view.emb y)) (fun y => A0 (((cfg0.win 0).blk t).view.emb y))
        (fun y => A3 (((cfg0.win 3).blk t).view.emb y)) (fun y => A1 (((cfg0.win 1).blk t).view.emb y))
        (fun y => A4 (((cfg0.win 4).blk t).view.emb y)) j
      = blockFn A0 A1 A2 A3 A4 (((cfg0.win 5).blk t).view.emb j) := by
  show FloatOps.addf
      (FloatOps.addf (A2 (((cfg0.win 2).blk t).view.emb (ValueP.ix5_0 j)))
        (FloatOps.mulf (FloatOps.sitofp .f32 ((IntOp.cmpi .eq (A0 (((cfg0.win 0).blk t).view.emb (ValueP.ix5_1 j))) 0#32).setWidth 32))
          (A3 (((cfg0.win 3).blk t).view.emb (ValueP.ix5_2 j)))))
      (FloatOps.mulf (FloatOps.sitofp .f32 ((IntOp.cmpi .eq (A1 (((cfg0.win 1).blk t).view.emb (ValueP.ix5_3 j))) 0#32).setWidth 32))
        (A4 (((cfg0.win 4).blk t).view.emb (ValueP.ix5_4 j)))) = _
  rw [emb_pe t j, emb_ids t j, emb_seg t j, emb_tok t j, emb_sg0 t j]
  rfl

/-- WHAT POINT `t` WRITES BACK is block `t` of `blockFn` of the arrays as the region finds them. -/
theorem flushed_eq (c : Dev nD) (t : Fin cfg0.N) :
    (dats m 0 c).flushed 5 t = ((cfg0.win 5).blk t).view.read (Elt F)
      (blockFn (V m c main_v0) (V m c main_v1) (V m c main_arg6) (V m c main_v5) (V m c main_v9)) := by
  rw [ValueP.flushed5]
  funext j
  refine (out_apply (F := F) _ _ _ _ _ j).trans ?_
  exact block_read (V m c main_v0) (V m c main_v1) (V m c main_arg6) (V m c main_v5) (V m c main_v9) t j

/-- An index of the output is in point `t`'s block iff each coordinate is in the block's range on its axis. -/
theorem mem_blk (t : Fin cfg0.N) (i : S16x2048x768.Idx) :
    i ∈ ((cfg0.win 5).blk t).view.set ↔ ∀ a : Fin 3, win0_5.index t a * S1x512x768.size a ≤ (i a).val
      ∧ (i a).val < win0_5.index t a * S1x512x768.size a + S1x512x768.size a := by
  show i ∈ ((View.whole main_v10).slice (win0_5.rect t)).set ↔ _
  rw [View.set_slice_whole, Rect.mem_set_unit]
  exact Iff.rfl

/-- The 64 blocks cover the output: the entry `(b, s, d)` is in the block of the point whose block index is
    `(b, s / 512, 0)`. -/
theorem covered (i : S16x2048x768.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 768 := (i 2).isLt
  obtain ⟨t, ht⟩ := index_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 768 ≤ (i 2).val ∧ (i 2).val < win0_5.index t (2 : Fin 3) * 768 + 768; omega

/-- THE OUTPUT ARRAY after the run is `blockFn` of the arrays as the region finds them. -/
theorem final (c : Dev nD) : (dats m 0 c).arrAt 5 cfg0.N
    = blockFn (V m c main_v0) (V m c main_v1) (V m c main_arg6) (V m c main_v5) (V m c main_v9) :=
  (dats m 0 c).arrAt_eq_of_cover 5 _ (fun t _ => flushed_eq m c t) covered

end Cert.KernelIdeal.Blocks

end
-- ==== Proof.Spec.lean ====
/-
  The specification both programs meet, as one function of the seven arguments, index by index, on the extended reals.

  With `ids, seg : [16, 2048]` integer ids, tables `wTok : [768, 32000]`, `wSeg : [768, 3]`, biases `bTok, bSeg : [768]`
  and the positional table `pe : [1, 2048, 768]`, the result at `(b, s, d)` is

      ( pe[0, s, d]  +  [ids[b, s] = 0] · (wTok[d, 0] + bTok[d]) )  +  [seg[b, s] = 0] · (wSeg[d, 0] + bSeg[d])

  where `[x = 0]` is 1 when the id is the zero word and 0 otherwise. Only column 0 of either table is ever read: the
  looked-up embedding is kept exactly at the positions whose id is 0, and there the row looked up is row 0 of the
  transposed table.

  `zeroInd` is that indicator in the form the kernel computes it (the comparison's bit, widened to a word, converted to a
  float); its two values are `zeroInd_zero` and `zeroInd_ne`. The two laws that join the reference's `where` to the kernel's
  product are `1 · x = x` and `0 · x = 0`, which hold for every extended real, the infinities included, so nothing here
  needs the inputs to be finite.
-/
import Idealize.ShloMosaic.PureOps.Ideal
import Idealize.ShloMosaic.Lib.ValueIdx

noncomputable section

namespace Cert.Spec

open Idealize.ShloMosaic Idealize.ShloMosaic.ValueIdx

/-- The indicator of the zero id on the extended reals, as the kernel forms it: `sitofp(extui(x == 0))`. -/
def zeroInd (x : BitVec 32) : EReal := FloatOps.sitofp (F := Ideal) .f32 ((IntOp.cmpi .eq x 0#32).setWidth 32)

/-- At the zero id the indicator is 1. -/
theorem zeroInd_zero : zeroInd 0#32 = 1 := by
  show (((((IntOp.cmpi .eq (0#32 : BitVec 32) 0#32).setWidth 32).toInt : ℤ) : ℝ) : EReal) = 1
  have h : ((IntOp.cmpi .eq (0#32 : BitVec 32) 0#32).setWidth 32).toInt = 1 := by decide
  rw [h]; norm_num

/-- At any other id the indicator is 0. -/
theorem zeroInd_ne {x : BitVec 32} (hx : x ≠ 0#32) : zeroInd x = 0 := by
  have hc : IntOp.cmpi .eq x 0#32 = 0#1 := by
    simp only [IntOp.cmpi, beq_eq_false_iff_ne.mpr hx]; rfl
  show (((((IntOp.cmpi .eq x 0#32).setWidth 32).toInt : ℤ) : ℝ) : EReal) = 0
  rw [hc]
  have h : ((0#1 : BitVec 1).setWidth 32).toInt = 0 := by decide
  rw [h]; norm_num

/-- The embedding at the position `(b, s)` and the channel `d`. -/
def embedAt (ids seg : IVec ⟨2, ![16, 2048]⟩ 32) (wTok : FVec Ideal ⟨2, ![768, 32000]⟩ .f32) (bTok : FVec Ideal ⟨1, ![768]⟩ .f32)
    (wSeg : FVec Ideal ⟨2, ![768, 3]⟩ .f32) (bSeg : FVec Ideal ⟨1, ![768]⟩ .f32) (pe : FVec Ideal ⟨3, ![1, 2048, 768]⟩ .f32)
    (b : Fin 16) (s : Fin 2048) (d : Fin 768) : EReal :=
  (pe (ix3 (0 : Fin 1) s d) + zeroInd (ids (ix2 b s)) * (wTok (ix2 d (0 : Fin 32000)) + bTok (ix1 d)))
    + zeroInd (seg (ix2 b s)) * (wSeg (ix2 d (0 : Fin 3)) + bSeg (ix1 d))

/-- The whole result array `[16, 2048, 768]`. -/
def embed (ids seg : IVec ⟨2, ![16, 2048]⟩ 32) (wTok : FVec Ideal ⟨2, ![768, 32000]⟩ .f32) (bTok : FVec Ideal ⟨1, ![768]⟩ .f32)
    (wSeg : FVec Ideal ⟨2, ![768, 3]⟩ .f32) (bSeg : FVec Ideal ⟨1, ![768]⟩ .f32) (pe : FVec Ideal ⟨3, ![1, 2048, 768]⟩ .f32) :
    FVec Ideal ⟨3, ![16, 2048, 768]⟩ .f32 :=
  fun i => embedAt ids seg wTok bTok wSeg bSeg pe (i 0) (i 1) (i 2)

theorem embed_apply (ids seg : IVec ⟨2, ![16, 2048]⟩ 32) (wTok : FVec Ideal ⟨2, ![768, 32000]⟩ .f32) (bTok : FVec Ideal ⟨1, ![768]⟩ .f32)
    (wSeg : FVec Ideal ⟨2, ![768, 3]⟩ .f32) (bSeg : FVec Ideal ⟨1, ![768]⟩ .f32) (pe : FVec Ideal ⟨3, ![1, 2048, 768]⟩ .f32)
    (b : Fin 16) (s : Fin 2048) (d : Fin 768) :
    embed ids seg wTok bTok wSeg bSeg pe (ix3 b s d) = embedAt ids seg wTok bTok wSeg bSeg pe b s d := rfl

/-- One masked table term, in the reference's form and in the kernel's: keeping `x` where the id is 0 and the zero elsewhere
    is the indicator times `x`. -/
theorem select_eq_zeroInd_mul (id : BitVec 32) (x : EReal) :
    Scalar.select (IntOp.cmpi .eq id 0#32) x 0 = zeroInd id * x := by
  by_cases h : id = 0#32
  · subst h
    rw [zeroInd_zero, one_mul]
    have hc : IntOp.cmpi .eq (0#32 : BitVec 32) 0#32 = 1#1 := by decide
    rw [hc, select_one]
  · rw [zeroInd_ne h, zero_mul]
    have hc : IntOp.cmpi .eq id 0#32 = 0#1 := by
      simp only [IntOp.cmpi, beq_eq_false_iff_ne.mpr h]; rfl
    rw [hc, select_zero]

end Cert.Spec

end
-- ==== Proof.KernelHost.lean ====
/-
  The idealized kernel's output as the specification of its seven arguments.

  Before the region @main lays the two id arrays out as columns `[16, 2048, 1]`, and forms each of the two vectors the
  body multiplies by: column 0 of the table, `[768, 1]` read as `[768]`, plus the bias, read as `[1, 1, 768]`. So the
  region finds the id at `(b, s, 0)` of a column equal to the argument's id at `(b, s)`, the vector's entry at
  `(0, 0, d)` equal to `w[d, 0] + bias[d]`, and the positional table as launched. Substituting these into the
  whole-array function the 64 blocks were shown to tile gives, entry by entry, the specification's sum — the same three
  terms in the same order, so no law of the extended reals is needed on this side.
-/
import proofs.«127489_j68899865362566_1_alg».proof.Proof.KernelBlocks
import proofs.«127489_j68899865362566_1_alg».proof.Proof.Spec
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

/-! ## The host operations' terms -/

section Terms
variable {F : FTy → Type} [FloatOps F]

/-- An id array `[16, 2048]` as a column `[16, 2048, 1]`. -/
def idColumn {α : Type} (x : S16x2048.Idx → α) : S16x2048x1.Idx → α :=
  shapeCast S16x2048x1 x shapeCasts_S16x2048_S16x2048x1

/-- Column 0 of the token table plus the bias, as `[1, 1, 768]`. -/
def tokVector (w : FVec F S768x32000 .f32) (bias : FVec F S768 .f32) : FVec F S1x1x768 .f32 :=
  shapeCast S1x1x768
    (addf (shapeCast S768 (extractStridedSlice S768x1 ![0, 0] w slices_S768x32000_S768x1_0_0) shapeCasts_S768x1_S768) bias)
    shapeCasts_S768_S1x1x768

/-- Column 0 of the segment table plus the bias, as `[1, 1, 768]`. -/
def segVector (w : FVec F S768x3 .f32) (bias : FVec F S768 .f32) : FVec F S1x1x768 .f32 :=
  shapeCast S1x1x768
    (addf (shapeCast S768 (extractStridedSlice S768x1 ![0, 0] w slices_S768x3_S768x1_0_0) shapeCasts_S768x1_S768) bias)
    shapeCasts_S768_S1x1x768

variable (m : (ℓ : Loc nD τ sig) → Buf (Elt F) ℓ)

theorem V_ids (c : Dev nD) : (V m c main_v0 : S16x2048x1.Idx → Elt F .i32)
    = idColumn (m ((c : Thread nD τ).loc main_arg0)) := by
  dsimp only [Gen.V, Gen.hostOps0]; after_results; rfl

theorem V_seg (c : Dev nD) : (V m c main_v1 : S16x2048x1.Idx → Elt F .i32)
    = idColumn (m ((c : Thread nD τ).loc main_arg1)) := by
  dsimp only [Gen.V, Gen.hostOps0]; after_results; rfl

theorem V_tok0 (c : Dev nD) : (V m c main_v5 : S1x1x768.Idx → Elt F .f32)
    = tokVector (m ((c : Thread nD τ).loc main_arg2)) (m ((c : Thread nD τ).loc main_arg3)) := by
  dsimp only [Gen.V, Gen.hostOps0]; after_results; rfl

theorem V_seg0 (c : Dev nD) : (V m c main_v9 : S1x1x768.Idx → Elt F .f32)
    = segVector (m ((c : Thread nD τ).loc main_arg4)) (m ((c : Thread nD τ).loc main_arg5)) := by
  dsimp only [Gen.V, Gen.hostOps0]; after_results; rfl

end Terms

/-! ## The terms read at an index -/

/-- The column's entry at `(b, s, 0)` is the array's at `(b, s)`: the two have the same row-major position. -/
theorem idColumn_apply {α : Type} (x : S16x2048.Idx → α) (b : Fin 16) (s : Fin 2048) :
    idColumn x (ix3 b s (0 : Fin 1)) = x (ix2 b s) := by
  unfold idColumn
  refine shapeCast_apply x _ _ (ix2 b s) ?_
  rw [Shape.rowMajor_val_two, Shape.rowMajor_val_three]
  show b.val * 2048 + s.val = (b.val * 2048 + s.val) * 1 + 0
  omega

/-- A `[768]` vector read as `[1, 1, 768]`: the entry at `(0, 0, d)` is the vector's at `d`. -/
theorem vec3_apply {α : Type} (v : S768.Idx → α) (d : Fin 768) :
    shapeCast S1x1x768 v shapeCasts_S768_S1x1x768 (ix3 (0 : Fin 1) (0 : Fin 1) d) = v (ix1 d) := by
  refine shapeCast_apply v _ _ (ix1 d) ?_
  rw [Shape.rowMajor_val_one, Shape.rowMajor_val_three]
  show d.val = (0 * 1 + 0) * 768 + d.val
  omega

/-- Column 0 of a table `[768, n]`, cut as `[768, 1]` and read as `[768]`: the entry at `d` is the table's at `(d, 0)`. -/
theorem col0_apply {α : Type} {n : Nat} (w : (⟨2, ![768, n]⟩ : Shape).Idx → α) (hn : 0 < n)
    (hs : (⟨2, ![768, n]⟩ : Shape).Slices ![0, 0] S768x1) (d : Fin 768) :
    shapeCast S768 (extractStridedSlice S768x1 ![0, 0] w hs) shapeCasts_S768x1_S768 (ix1 d) = w (ix2 d ⟨0, hn⟩) := by
  refine (shapeCast_apply _ _ _ (ix2 d (0 : Fin 1)) ?_).trans ?_
  · rw [Shape.rowMajor_val_two, Shape.rowMajor_val_one]
    show d.val * 1 + 0 = d.val
    omega
  · refine extractStridedSlice_apply _ w hs _ (ix2 d ⟨0, hn⟩) fun a => ?_
    match a with
    | ⟨0, _⟩ => show d.val = 0 + d.val; omega
    | ⟨1, _⟩ => show 0 = 0 + 0; rfl

theorem tokVector_apply (w : FVec Ideal S768x32000 .f32) (bias : FVec Ideal S768 .f32) (d : Fin 768) :
    tokVector (F := Ideal) w bias (ix3 (0 : Fin 1) (0 : Fin 1) d) = w (ix2 d (0 : Fin 32000)) + bias (ix1 d) := by
  unfold tokVector
  rw [vec3_apply, addf_apply]
  exact congrArg (· + bias (ix1 d)) (col0_apply w (by decide) slices_S768x32000_S768x1_0_0 d)

theorem segVector_apply (w : FVec Ideal S768x3 .f32) (bias : FVec Ideal S768 .f32) (d : Fin 768) :
    segVector (F := Ideal) w bias (ix3 (0 : Fin 1) (0 : Fin 1) d) = w (ix2 d (0 : Fin 3)) + bias (ix1 d) := by
  unfold segVector
  rw [vec3_apply, addf_apply]
  exact congrArg (· + bias (ix1 d)) (col0_apply w (by decide) slices_S768x3_S768x1_0_0 d)

/-! ## The whole-array function at the host's terms is the specification -/

/-- Over arbitrary arguments: the function the blocks tile, at the columns and the two vectors the host forms, is the
    specification. -/
theorem blockFn_spec (ids seg : IVec S16x2048 32) (wTok : FVec Ideal S768x32000 .f32) (bTok : FVec Ideal S768 .f32)
    (wSeg : FVec Ideal S768x3 .f32) (bSeg : FVec Ideal S768 .f32) (pe : FVec Ideal S1x2048x768 .f32) :
    Blocks.blockFn (F := Ideal) (idColumn ids) (idColumn seg) pe (tokVector wTok bTok) (segVector wSeg bSeg)
      = Cert.Spec.embed ids seg wTok bTok wSeg bSeg pe := by
  funext i
  obtain ⟨b, s, d, rfl⟩ : ∃ (b : Fin 16) (s : Fin 2048) (d : Fin 768), i = ix3 b s d := ⟨i 0, i 1, i 2, eq_ix3 i⟩
  show (pe (ix3 (0 : Fin 1) s d)
        + Cert.Spec.zeroInd (idColumn ids (ix3 b s (0 : Fin 1))) * tokVector (F := Ideal) wTok bTok (ix3 (0 : Fin 1) (0 : Fin 1) d))
      + Cert.Spec.zeroInd (idColumn seg (ix3 b s (0 : Fin 1))) * segVector (F := Ideal) wSeg bSeg (ix3 (0 : Fin 1) (0 : Fin 1) d)
    = Cert.Spec.embedAt ids seg wTok bTok wSeg bSeg pe b s d
  rw [idColumn_apply, idColumn_apply, tokVector_apply, segVector_apply]
  rfl

/-- THE OUTPUT ARRAY after the idealized kernel's run is the specification of the seven launch arrays. -/
theorem final_spec (m : (ℓ : Loc nD τ sig) → Buf (Elt Ideal) ℓ) (c : Dev nD) :
    (dats m 0 c).arrAt 5 cfg0.N
      = Cert.Spec.embed (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  rw [Blocks.final m c, V_ids m c, V_seg m c, V_tok0 m c, V_seg0 m c, V_main_arg6 m c]
  exact blockFn_spec _ _ _ _ _ _ _

/-- Every weakly fair execution of the idealized kernel's @main terminates with the output array at the specification
    of the seven launch arrays and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v10)
        = Cert.Spec.embed (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_spec m c), (h c).2⟩) (ValueP.run_blocks m ρ)

end Cert.KernelIdeal.HostSide

end
-- ==== Proof.RefRun.lean ====
/-
  The reference program's run, read back as one pure term of its arguments.

  The reference is `tok + pe + seg` where each of `tok`, `seg` is
  `where(ids == 0, take(Wᵀ, ids) + b, 0)`: `take` is jnp's gather of rows of the transposed table in its "fill" mode
  (a negative index wrapped by the table's height, then the gathered row kept where the wrapped index is inside
  the table and the quiet-NaN word elsewhere), and the outer `where` keeps the looked-up row plus bias exactly at the
  positions whose id is 0, the literal zero elsewhere.

  jax outlines `take` and `where` as private functions that @main calls; a call executes the callee's operations on
  the call's own buffers. Here @main is written as the straight line of its 75 operations, each call's operations
  in place over that call's buffer record, and the run of a straight line of host operations is the fold of their
  pure functions over the launch contents. That fold at the result buffer is `refOut` below: the same operations as
  nested function applications, with `take` and the masked embedding as named functions of the table and the ids.
-/
import proofs.«127489_j68899865362566_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The lookup and the masked embedding as pure functions -/

/-- The wrapped index array of `take`: an id below zero has the table's height `n` added, any other id is kept;
    laid out `[16, 2048, 1]`, the trailing axis the gather's index vector. -/
def wrapIdx (n : BitVec 32) (ids : IVec S16x2048 32) : IVec S16x2048x1 32 :=
  broadcastInDim S16x2048x1 ![0, 1] bcast_S16x2048_S16x2048x1_0_1
    (select (cmpi .slt ids (broadcastInDim S16x2048 ![] bcast_S_S16x2048 (constantI S_ 32 0#32)))
      (addi ids (broadcastInDim S16x2048 ![] bcast_S_S16x2048 (constantI S_ 32 n))) ids)

/-- Where the wrapped index is inside the table: `0 ≤ idx ≤ last`, the conjunction folded over the (unit) index-vector axis
    from `true`. -/
def inTable (last : BitVec 32) (idx : IVec S16x2048x1 32) : IVec S16x2048 1 :=
  Host.reduce IntOp.andi
    (andi (cmpi .sge idx (broadcastInDim S16x2048x1 ![] bcast_S_S16x2048x1 (constantI S_ 32 0#32)))
      (cmpi .sle idx (broadcastInDim S16x2048x1 ![0, 1, 2] bcast_S1x1x1_S16x2048x1_0_1_2
        (broadcastInDim S1x1x1 ![2] bcast_S1_S1x1x1_2 (constantI S1 32 last)))))
    (constantI S_ 1 1#1) reducesTo_S16x2048x1_S16x2048_d2 h_S_

/-- `take(T, ids)` along axis 0 of a table `T : [N, 768]` with `n = N`, `last = N − 1`: row `idx` of the table where the
    wrapped index is inside it, the quiet-NaN word where it is not. -/
def takeRows {T : Shape} (g : GatherDims T S16x2048x1 S16x2048x768) (n last : BitVec 32) (tbl : FVec F T .f32)
    (ids : IVec S16x2048 32) : FVec F S16x2048x768 .f32 :=
  select (broadcastInDim S16x2048x768 ![0, 1] bcast_S16x2048_S16x2048x768_0_1 (inTable last (wrapIdx n ids)))
    (Host.gather g tbl (wrapIdx n ids))
    (broadcastInDim S16x2048x768 ![] bcast_S_S16x2048x768 (constant S_ .f32 0x7FC00000#32))

/-- The masked embedding: the looked-up row plus the bias at the positions whose id is 0, the literal zero elsewhere. -/
def maskedEmbed (rows : FVec F S16x2048x768 .f32) (bias : FVec F S768 .f32) (ids : IVec S16x2048 32) :
    FVec F S16x2048x768 .f32 :=
  select
    (broadcastInDim S16x2048x768 ![0, 1, 2] bcast_S16x2048x1_S16x2048x768_0_1_2
      (broadcastInDim S16x2048x1 ![0, 1] bcast_S16x2048_S16x2048x1_0_1
        (cmpi .eq ids (broadcastInDim S16x2048 ![] bcast_S_S16x2048 (constantI S_ 32 0#32)))))
    (addf rows (broadcastInDim S16x2048x768 ![0, 1, 2] bcast_S1x1x768_S16x2048x768_0_1_2
      (broadcastInDim S1x1x768 ![2] bcast_S768_S1x1x768_2 bias)))
    (broadcastInDim S16x2048x768 ![2] bcast_S768_S16x2048x768_2
      (broadcastInDim S768 ![] bcast_S_S768 (constant S_ .f32 0x00000000#32)))

/-- The reference's result as one function of its seven arguments: `(tok + pe) + seg`. -/
def refOut (ids seg : IVec S16x2048 32) (wTok : FVec F S768x32000 .f32) (bTok : FVec F S768 .f32)
    (wSeg : FVec F S768x3 .f32) (bSeg : FVec F S768 .f32) (pe : FVec F S1x2048x768 .f32) : FVec F S16x2048x768 .f32 :=
  addf
    (addf
      (maskedEmbed (takeRows gather_S32000x768_S16x2048x1_S16x2048x768_2_0_n_n_0_2_1768 32000#32 31999#32
        (transpose S32000x768 [1, 0] wTok transposes_S768x32000_S32000x768_1_0) ids) bTok ids)
      (broadcastInDim S16x2048x768 ![0, 1, 2] bcast_S1x2048x768_S16x2048x768_0_1_2 pe))
    (maskedEmbed (takeRows gather_S3x768_S16x2048x1_S16x2048x768_2_0_n_n_0_2_1768 3#32 2#32
      (transpose S3x768 [1, 0] wSeg transposes_S768x3_S3x768_1_0) seg) bSeg seg)

/-! ## @main as a straight line -/

/-- @main's 75 operations in order, each call's operations in place over the call's buffers: the transpose of the
    token table; `take`'s 23 (the wrap: 6 and `where`'s select; the index layout; the in-table test: 10; the gather; the
    fill: 4); the bias broadcasts and the sum; the pad test and the zero vector: 6; `where`'s 3; the same 36 for the
    segment table; the positional table's broadcast and the two final sums. -/
abbrev ops : List (HloOp τ sig (Elt F)) :=
  [ unary main_arg2 main_v0 ((transpose S32000x768 [1, 0] · transposes_S768x32000_S32000x768_1_0) : (⟨S768x32000, .f32⟩ : BufTy).Contents (Elt F) → (⟨S32000x768, .f32⟩ : BufTy).Contents (Elt F)),
    TRef.nullary main_call0.c (constantI S_ 32 0#32),
    TRef.unary main_call0.c main_call0.v0 (broadcastInDim S16x2048 ![] bcast_S_S16x2048),
    TRef.binary (.of main_arg0 : TRef sig ⟨S16x2048, .i32⟩) main_call0.v0 main_call0.v1 (cmpi .slt),
    TRef.nullary main_call0.c_0 (constantI S_ 32 32000#32),
    TRef.unary main_call0.c_0 main_call0.v2 (broadcastInDim S16x2048 ![] bcast_S_S16x2048),
    TRef.binary (.of main_arg0 : TRef sig ⟨S16x2048, .i32⟩) main_call0.v2 main_call0.v3 addi,
    TRef.ternary main_call0.v1 main_call0.v3 (.of main_arg0 : TRef sig ⟨S16x2048, .i32⟩) main_call0.call0.v0 select,
    TRef.unary main_call0.call0.v0 main_call0.v5 (broadcastInDim S16x2048x1 ![0, 1] bcast_S16x2048_S16x2048x1_0_1),
    TRef.nullary main_call0.c_1 (constantI S1 32 31999#32),
    TRef.nullary main_call0.c_2 (constantI S_ 32 0#32),
    TRef.unary main_call0.c_2 main_call0.v6 (broadcastInDim S16x2048x1 ![] bcast_S_S16x2048x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16x2048x1 ![0, 1, 2] bcast_S1x1x1_S16x2048x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x2048x1_S16x2048_d2 h_S_),
    TRef.binary (.of main_v0 : TRef sig ⟨S32000x768, .f32⟩) main_call0.v5 main_call0.v13 (fun x i => Host.gather gather_S32000x768_S16x2048x1_S16x2048x768_2_0_n_n_0_2_1768 x i),
    TRef.unary main_call0.v12 main_call0.v14 (broadcastInDim S16x2048x768 ![0, 1] bcast_S16x2048_S16x2048x768_0_1),
    TRef.nullary main_call0.cst (constant S_ .f32 0x7FC00000#32),
    TRef.unary main_call0.cst main_call0.v15 (broadcastInDim S16x2048x768 ![] bcast_S_S16x2048x768),
    TRef.ternary main_call0.v14 main_call0.v13 main_call0.v15 main_call0.v16 select,
    unary main_arg3 main_v2 (broadcastInDim S1x1x768 ![2] bcast_S768_S1x1x768_2 : (⟨S768, .f32⟩ : BufTy).Contents (Elt F) → (⟨S1x1x768, .f32⟩ : BufTy).Contents (Elt F)),
    unary main_v2 main_v3 (broadcastInDim S16x2048x768 ![0, 1, 2] bcast_S1x1x768_S16x2048x768_0_1_2 : (⟨S1x1x768, .f32⟩ : BufTy).Contents (Elt F) → (⟨S16x2048x768, .f32⟩ : BufTy).Contents (Elt F)),
    binary main_v1 main_v3 main_v4 (addf : (⟨S16x2048x768, .f32⟩ : BufTy).Contents (Elt F) → (⟨S16x2048x768, .f32⟩ : BufTy).Contents (Elt F) → (⟨S16x2048x768, .f32⟩ : BufTy).Contents (Elt F)),
    nullary main_c (constantI S_ 32 0#32),
    unary main_c main_v5 (broadcastInDim S16x2048 ![] bcast_S_S16x2048 : (⟨S_, .i32⟩ : BufTy).Contents (Elt F) → (⟨S16x2048, .i32⟩ : BufTy).Contents (Elt F)),
    binary main_arg0 main_v5 main_v6 (cmpi .eq : (⟨S16x2048, .i32⟩ : BufTy).Contents (Elt F) → (⟨S16x2048, .i32⟩ : BufTy).Contents (Elt F) → (⟨S16x2048, .i1⟩ : BufTy).Contents (Elt F)),
    nullary main_cst (constant S_ .f32 0x00000000#32),
    unary main_cst main_v7 (broadcastInDim S768 ![] bcast_S_S768 : (⟨S_, .f32⟩ : BufTy).Contents (Elt F) → (⟨S768, .f32⟩ : BufTy).Contents (Elt F)),
    unary main_v6 main_v8 (broadcastInDim S16x2048x1 ![0, 1] bcast_S16x2048_S16x2048x1_0_1 : (⟨S16x2048, .i1⟩ : BufTy).Contents (Elt F) → (⟨S16x2048x1, .i1⟩ : BufTy).Contents (Elt F)),
    TRef.unary (.of main_v8 : TRef sig ⟨S16x2048x1, .i1⟩) main_call1.v0 (broadcastInDim S16x2048x768 ![0, 1, 2] bcast_S16x2048x1_S16x2048x768_0_1_2),
    TRef.unary (.of main_v7 : TRef sig ⟨S768, .f32⟩) main_call1.v1 (broadcastInDim S16x2048x768 ![2] bcast_S768_S16x2048x768_2),
    TRef.ternary main_call1.v0 (.of main_v4 : TRef sig ⟨S16x2048x768, .f32⟩) main_call1.v1 main_call1.v2 select,
    unary main_arg4 main_v10 ((transpose S3x768 [1, 0] · transposes_S768x3_S3x768_1_0) : (⟨S768x3, .f32⟩ : BufTy).Contents (Elt F) → (⟨S3x768, .f32⟩ : BufTy).Contents (Elt F)),
    TRef.nullary main_call2.c (constantI S_ 32 0#32),
    TRef.unary main_call2.c main_call2.v0 (broadcastInDim S16x2048 ![] bcast_S_S16x2048),
    TRef.binary (.of main_arg1 : TRef sig ⟨S16x2048, .i32⟩) main_call2.v0 main_call2.v1 (cmpi .slt),
    TRef.nullary main_call2.c_0 (constantI S_ 32 3#32),
    TRef.unary main_call2.c_0 main_call2.v2 (broadcastInDim S16x2048 ![] bcast_S_S16x2048),
    TRef.binary (.of main_arg1 : TRef sig ⟨S16x2048, .i32⟩) main_call2.v2 main_call2.v3 addi,
    TRef.ternary main_call2.v1 main_call2.v3 (.of main_arg1 : TRef sig ⟨S16x2048, .i32⟩) main_call2.call0.v0 select,
    TRef.unary main_call2.call0.v0 main_call2.v5 (broadcastInDim S16x2048x1 ![0, 1] bcast_S16x2048_S16x2048x1_0_1),
    TRef.nullary main_call2.c_1 (constantI S1 32 2#32),
    TRef.nullary main_call2.c_2 (constantI S_ 32 0#32),
    TRef.unary main_call2.c_2 main_call2.v6 (broadcastInDim S16x2048x1 ![] bcast_S_S16x2048x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S16x2048x1 ![0, 1, 2] bcast_S1x1x1_S16x2048x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16x2048x1_S16x2048_d2 h_S_),
    TRef.binary (.of main_v10 : TRef sig ⟨S3x768, .f32⟩) main_call2.v5 main_call2.v13 (fun x i => Host.gather gather_S3x768_S16x2048x1_S16x2048x768_2_0_n_n_0_2_1768 x i),
    TRef.unary main_call2.v12 main_call2.v14 (broadcastInDim S16x2048x768 ![0, 1] bcast_S16x2048_S16x2048x768_0_1),
    TRef.nullary main_call2.cst (constant S_ .f32 0x7FC00000#32),
    TRef.unary main_call2.cst main_call2.v15 (broadcastInDim S16x2048x768 ![] bcast_S_S16x2048x768),
    TRef.ternary main_call2.v14 main_call2.v13 main_call2.v15 main_call2.v16 select,
    unary main_arg5 main_v12 (broadcastInDim S1x1x768 ![2] bcast_S768_S1x1x768_2 : (⟨S768, .f32⟩ : BufTy).Contents (Elt F) → (⟨S1x1x768, .f32⟩ : BufTy).Contents (Elt F)),
    unary main_v12 main_v13 (broadcastInDim S16x2048x768 ![0, 1, 2] bcast_S1x1x768_S16x2048x768_0_1_2 : (⟨S1x1x768, .f32⟩ : BufTy).Contents (Elt F) → (⟨S16x2048x768, .f32⟩ : BufTy).Contents (Elt F)),
    binary main_v11 main_v13 main_v14 (addf : (⟨S16x2048x768, .f32⟩ : BufTy).Contents (Elt F) → (⟨S16x2048x768, .f32⟩ : BufTy).Contents (Elt F) → (⟨S16x2048x768, .f32⟩ : BufTy).Contents (Elt F)),
    nullary main_c_0 (constantI S_ 32 0#32),
    unary main_c_0 main_v15 (broadcastInDim S16x2048 ![] bcast_S_S16x2048 : (⟨S_, .i32⟩ : BufTy).Contents (Elt F) → (⟨S16x2048, .i32⟩ : BufTy).Contents (Elt F)),
    binary main_arg1 main_v15 main_v16 (cmpi .eq : (⟨S16x2048, .i32⟩ : BufTy).Contents (Elt F) → (⟨S16x2048, .i32⟩ : BufTy).Contents (Elt F) → (⟨S16x2048, .i1⟩ : BufTy).Contents (Elt F)),
    nullary main_cst_1 (constant S_ .f32 0x00000000#32),
    unary main_cst_1 main_v17 (broadcastInDim S768 ![] bcast_S_S768 : (⟨S_, .f32⟩ : BufTy).Contents (Elt F) → (⟨S768, .f32⟩ : BufTy).Contents (Elt F)),
    unary main_v16 main_v18 (broadcastInDim S16x2048x1 ![0, 1] bcast_S16x2048_S16x2048x1_0_1 : (⟨S16x2048, .i1⟩ : BufTy).Contents (Elt F) → (⟨S16x2048x1, .i1⟩ : BufTy).Contents (Elt F)),
    TRef.unary (.of main_v18 : TRef sig ⟨S16x2048x1, .i1⟩) main_call3.v0 (broadcastInDim S16x2048x768 ![0, 1, 2] bcast_S16x2048x1_S16x2048x768_0_1_2),
    TRef.unary (.of main_v17 : TRef sig ⟨S768, .f32⟩) main_call3.v1 (broadcastInDim S16x2048x768 ![2] bcast_S768_S16x2048x768_2),
    TRef.ternary main_call3.v0 (.of main_v14 : TRef sig ⟨S16x2048x768, .f32⟩) main_call3.v1 main_call3.v2 select,
    unary main_arg6 main_v20 (broadcastInDim S16x2048x768 ![0, 1, 2] bcast_S1x2048x768_S16x2048x768_0_1_2 : (⟨S1x2048x768, .f32⟩ : BufTy).Contents (Elt F) → (⟨S16x2048x768, .f32⟩ : BufTy).Contents (Elt F)),
    binary main_v9 main_v20 main_v21 (addf : (⟨S16x2048x768, .f32⟩ : BufTy).Contents (Elt F) → (⟨S16x2048x768, .f32⟩ : BufTy).Contents (Elt F) → (⟨S16x2048x768, .f32⟩ : BufTy).Contents (Elt F)),
    binary main_v21 main_v19 main_v22 (addf : (⟨S16x2048x768, .f32⟩ : BufTy).Contents (Elt F) → (⟨S16x2048x768, .f32⟩ : BufTy).Contents (Elt F) → (⟨S16x2048x768, .f32⟩ : BufTy).Contents (Elt F)) ]

set_option maxRecDepth 4096 in
set_option maxHeartbeats 4000000 in
/-- @main is that straight line: the callees' definitions unfolded at their calls and the records at their fields,
    both sides are one chain of host steps once the sequencing is re-associated. -/
theorem main_eq (c : Dev nD) : main (F := F) c = seq ops := by
  simp only [main, fn_take.body, fn_take_1.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., unary_bufs_sub .., unary_bufs_sub .., ternary_bufs_sub .., unary_bufs_sub .., binary_bufs_sub .., binary_bufs_sub ..⟩

/-- Every weakly fair execution of @main terminates with each TensorCore buffer at the fold of the 75 operations over
    the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefTerm.lean ====
/-
  The reference's run read back at its result: after every weakly fair execution of @main the result buffer holds
  `refOut` of the seven argument arrays, and the arguments are as launched.

  The run of the straight line is the fold of its 75 operations over the launch contents. Reading the fold at the result
  buffer replaces each operation by its pure function of the buffers it reads, outermost first, until only the
  argument arrays are left. An operation inside an outlined function reads and writes through typed references; the
  contents pass through a transport along the reference's type equation on the way in and on the way out, and a value
  carried out of one operation and into the next meets the two transports back to back, which cancel (`ofBuf_toBuf`).
  What is left is the same nest of operations as `refOut`, the remaining transports being identities at these literal
  references.
-/
import proofs.«127489_j68899865362566_1_alg».proof.Proof.RefRun

noncomputable section

namespace Cert.ReferenceIdeal.RefTerm

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- Contents carried into a typed reference's buffer and read back out are the contents. -/
theorem ofBuf_toBuf {Val : EltTy → Type} {sig : RefSig} {T : BufTy} (x : TRef sig T) (v : T.Contents Val) :
    x.ofBuf (x.toBuf v) = v := by
  obtain ⟨ref, ty_eq, h2, h3⟩ := x
  cases ty_eq
  rfl

set_option maxRecDepth 400000 in
set_option maxHeartbeats 4000000 in
/-- The fold of the 75 operations, read at the result buffer, is `refOut` of the launch contents of the arguments. -/
theorem result_term (m : (ℓ : Loc nD τ sig) → Buf (Elt F) ℓ) (c : Dev nD) :
    after (ops (F := F)) (launchContents m c) (Proc.devRef .tc main_v22)
      = refOut (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  after_results_simp
  simp only [ofBuf_toBuf]
  rfl

/-! No operation writes an argument buffer: read at an argument, the fold is the launch contents. -/

set_option maxRecDepth 400000 in
set_option maxHeartbeats 4000000 in
theorem kept_arg0 (m : (ℓ : Loc nD τ sig) → Buf (Elt F) ℓ) (c : Dev nD) :
    after (ops (F := F)) (launchContents m c) (Proc.devRef .tc main_arg0) = m ((c.tc : Thread nD τ).loc main_arg0) := by
  after_results_simp

set_option maxRecDepth 400000 in
set_option maxHeartbeats 4000000 in
theorem kept_arg1 (m : (ℓ : Loc nD τ sig) → Buf (Elt F) ℓ) (c : Dev nD) :
    after (ops (F := F)) (launchContents m c) (Proc.devRef .tc main_arg1) = m ((c.tc : Thread nD τ).loc main_arg1) := by
  after_results_simp

set_option maxRecDepth 400000 in
set_option maxHeartbeats 4000000 in
theorem kept_arg2 (m : (ℓ : Loc nD τ sig) → Buf (Elt F) ℓ) (c : Dev nD) :
    after (ops (F := F)) (launchContents m c) (Proc.devRef .tc main_arg2) = m ((c.tc : Thread nD τ).loc main_arg2) := by
  after_results_simp

set_option maxRecDepth 400000 in
set_option maxHeartbeats 4000000 in
theorem kept_arg3 (m : (ℓ : Loc nD τ sig) → Buf (Elt F) ℓ) (c : Dev nD) :
    after (ops (F := F)) (launchContents m c) (Proc.devRef .tc main_arg3) = m ((c.tc : Thread nD τ).loc main_arg3) := by
  after_results_simp

set_option maxRecDepth 400000 in
set_option maxHeartbeats 4000000 in
theorem kept_arg4 (m : (ℓ : Loc nD τ sig) → Buf (Elt F) ℓ) (c : Dev nD) :
    after (ops (F := F)) (launchContents m c) (Proc.devRef .tc main_arg4) = m ((c.tc : Thread nD τ).loc main_arg4) := by
  after_results_simp

set_option maxRecDepth 400000 in
set_option maxHeartbeats 4000000 in
theorem kept_arg5 (m : (ℓ : Loc nD τ sig) → Buf (Elt F) ℓ) (c : Dev nD) :
    after (ops (F := F)) (launchContents m c) (Proc.devRef .tc main_arg5) = m ((c.tc : Thread nD τ).loc main_arg5) := by
  after_results_simp

set_option maxRecDepth 400000 in
set_option maxHeartbeats 4000000 in
theorem kept_arg6 (m : (ℓ : Loc nD τ sig) → Buf (Elt F) ℓ) (c : Dev nD) :
    after (ops (F := F)) (launchContents m c) (Proc.devRef .tc main_arg6) = m ((c.tc : Thread nD τ).loc main_arg6) := by
  after_results_simp

/-- Every weakly fair execution of @main terminates with the result buffer at `refOut` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = refOut (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v22).trans (result_term m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c)⟩)
    (run_ops m ρ)

end Cert.ReferenceIdeal.RefTerm

end
-- ==== Proof.LibTakeRows.lean ====
/-
  Two read-at-an-index facts about the host operations that jnp's `take` along axis 0 of a matrix lowers to, stated over
  arbitrary extents; they mention no program.

  * `gather_rows_apply`: the gather of ROWS of a table `[N, D]` at start indices laid out `[R, C, 1]` (offset axis the
    last result axis, the table's row axis collapsed, the index vector on the trailing unit axis, slices `[1, D]`)
    read at `(r, c, e)` is the table at row `idx[r, c, 0]`, read signed and clamped into `[0, N − 1]`, column `e`.
  * `reduce_andi_eq_one_of_forall`: a reduction by `and` from the initial value `true` is `true` at a result index as
    soon as every operand entry that reduces into that index is `true` (the converse of the library's read-back of a
    `jnp.all`), and `fold_andi_one`, the fact about finite folds it rests on.
-/
import Idealize.ShloMosaic.Lib.ValueIdx
import Idealize.ShloMosaic.Lib.Affine
import Idealize.ShloMosaic.PureOps.Reduce

noncomputable section

namespace Idealize.ShloMosaic.TakeRows

open Idealize.ShloMosaic Idealize.ShloMosaic.ValueIdx

/-! ## A fold by `and` over entries that are all `true` -/

/-- A fold by `and` from `true` over a finite set on which every entry is `true` is `true`. -/
theorem fold_andi_one {ι : Type} (x : ι → BitVec 1) (S : Finset ι) (hx : ∀ i ∈ S, x i = 1#1) :
    S.fold IntOp.andi 1#1 x = 1#1 := by
  induction S using Finset.cons_induction with
  | empty => rfl
  | cons a S ha ih =>
    rw [Finset.fold_cons, hx a (Finset.mem_cons_self a S), ih fun i hi => hx i (Finset.mem_cons.mpr (Or.inr hi))]
    decide

/-- A `stablehlo.reduce` by `and` whose initial value is `true` is `true` at `j` when every operand entry that reduces
    into `j` is `true`. -/
theorem reduce_andi_eq_one_of_forall {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i : s.Idx, h.drop i = j → x i = 1#1) :
    Host.reduce IntOp.andi x init h hu j = 1#1 := by
  rw [Host.reduce_eq_fold, hinit]
  exact fold_andi_one x _ fun i hi => hx i (Finset.mem_filter.mp hi).2

/-! ## The gather of rows of a matrix, read at an index -/

section Rows
variable {α : Type}

/-- The dimension numbers of `take(T, idx, axis = 0)` for a table `[N, D]`, start indices `[R, C, 1]` and a result
    `[R, C, D]`; their conditions `wf` are decided on a program's literal shapes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Axis 1 of a rank-2 table is kept when axis 0 is the one collapsed. -/
theorem one_mem_kept : (1 : Fin 2) ∈ (List.finRange 2).filter (· ∉ ([0] ++ [] : List (Fin 2))) := by decide

/-- THE ROW GATHER READ AT `(r, c, e)`: the table at the row the start index `idx[r, c, 0]` names — read signed and
    clamped into `[0, N − 1]`, as StableHLO's gather clamps every start index — and at column `e`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (rowDims N D R C wf) x idx (ix3 r c e)
      = x (ix2 ⟨min (idx (ix3 r c (0 : Fin 1))).toInt.toNat (N - 1), by omega⟩ e) := by
  unfold Host.gather
  congr 1
  funext a
  refine Fin.ext ?_
  match a with
  | ⟨0, _⟩ =>
    show (rowDims N D R C wf).start (ix3 r c e) idx 0 + (rowDims N D R C wf).batchCoord (ix3 r c e) 0
        + (rowDims N D R C wf).offCoord (ix3 r c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c e) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 r c e) idx 1 + (rowDims N D R C wf).batchCoord (ix3 r c e) 1
        + (rowDims N D R C wf).offCoord (ix3 r c e) 1 = e.val
    rw [GatherDims.batchCoord_eq_zero _ _ _ List.not_mem_nil]
    have hs : (rowDims N D R C wf).start (ix3 r c e) idx 1 = 0 := by
      unfold GatherDims.start
      rw [dif_neg (show (1 : Fin 2) ∉ ([0] : List (Fin 2)) by decide)]
    have hk : (1 : Fin 2) ∈ (rowDims N D R C wf).sKept := one_mem_kept
    have ho : (rowDims N D R C wf).offCoord (ix3 r c e) 1 = e.val := by
      unfold GatherDims.offCoord
      rw [dif_pos hk]
      rfl
    rw [hs, ho]
    omega

end Rows

end Idealize.ShloMosaic.TakeRows

end
-- ==== Proof.RefValue.lean ====
/-
  The reference's result, read index by index, is the specification.

  At the position `(b, s)` and the channel `d` the reference's result is
  `(tok + pe[0, s, d]) + seg`, where each of `tok`, `seg` is a masked embedding: the row of the transposed table that
  the id looks up, plus the bias, kept where the id is the zero word, and the literal zero elsewhere. A masked embedding
  at `(b, s, d)` is therefore a select on the bit `ids[b, s] = 0`. Where that bit is 0 the select answers the literal zero
  whatever row was looked up, so the looked-up row matters only where the id IS zero; and there the wrapped index is
  again zero (zero is not below zero, so nothing is added), it lies inside the table (`0 ≤ 0 ≤ last`), the gather reads
  row `min 0 (N − 1) = 0` of the transposed table, and row 0, column `d` of the transpose is the table at `(d, 0)`.
  The select on that bit is the indicator of the zero id times the kept value, which is the specification's term; the
  sum `tok + pe` is the specification's `pe + tok` commuted.
-/
import proofs.«127489_j68899865362566_1_alg».proof.Proof.RefRun
import proofs.«127489_j68899865362566_1_alg».proof.Proof.Spec
import proofs.«127489_j68899865362566_1_alg».proof.Proof.LibTakeRows
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx

/-! ## The broadcasts of the program, read at an index given by its coordinates -/

section Reads
variable {α : Type}

/-- `[16, 2048]` laid out as `[16, 2048, 1]`: the entry at `(b, s, z)` is the operand's at `(b, s)`. -/
theorem bcast_bs_bs1 (h : S16x2048.BroadcastsInDim S16x2048x1 ![0, 1]) (x : S16x2048.Idx → α)
    (b : Fin 16) (s : Fin 2048) (z : Fin 1) :
    broadcastInDim S16x2048x1 ![0, 1] h x (ix3 b s z) = x (ix2 b s) :=
  broadcastInDim_apply _ h x _ _ fun a => match a with | ⟨0, _⟩ => rfl | ⟨1, _⟩ => rfl

/-- `[16, 2048]` copied along the channel axis: the entry at `(b, s, d)` is the operand's at `(b, s)`. -/
theorem bcast_bs_bsd (h : S16x2048.BroadcastsInDim S16x2048x768 ![0, 1]) (x : S16x2048.Idx → α)
    (b : Fin 16) (s : Fin 2048) (d : Fin 768) :
    broadcastInDim S16x2048x768 ![0, 1] h x (ix3 b s d) = x (ix2 b s) :=
  broadcastInDim_apply _ h x _ _ fun a => match a with | ⟨0, _⟩ => rfl | ⟨1, _⟩ => rfl

/-- `[16, 2048, 1]` copied along the channel axis: the entry at `(b, s, d)` is the operand's at `(b, s, 0)`. -/
theorem bcast_bs1_bsd (h : S16x2048x1.BroadcastsInDim S16x2048x768 ![0, 1, 2]) (x : S16x2048x1.Idx → α)
    (b : Fin 16) (s : Fin 2048) (d : Fin 768) :
    broadcastInDim S16x2048x768 ![0, 1, 2] h x (ix3 b s d) = x (ix3 b s (0 : Fin 1)) :=
  broadcastInDim_apply _ h x _ _ fun a => match a with | ⟨0, _⟩ => rfl | ⟨1, _⟩ => rfl | ⟨2, _⟩ => rfl

/-- A channel vector `[768]` laid out as `[1, 1, 768]`: the entry at `(0, 0, d)` is the operand's at `d`. -/
theorem bcast_d_11d (h : S768.BroadcastsInDim S1x1x768 ![2]) (x : S768.Idx → α) (d : Fin 768) :
    broadcastInDim S1x1x768 ![2] h x (ix3 (0 : Fin 1) (0 : Fin 1) d) = x (ix1 d) :=
  broadcastInDim_apply _ h x _ _ fun a => match a with | ⟨0, _⟩ => rfl

/-- `[1, 1, 768]` copied to every position: the entry at `(b, s, d)` is the operand's at `(0, 0, d)`. -/
theorem bcast_11d_bsd (h : S1x1x768.BroadcastsInDim S16x2048x768 ![0, 1, 2]) (x : S1x1x768.Idx → α)
    (b : Fin 16) (s : Fin 2048) (d : Fin 768) :
    broadcastInDim S16x2048x768 ![0, 1, 2] h x (ix3 b s d) = x (ix3 (0 : Fin 1) (0 : Fin 1) d) :=
  broadcastInDim_apply _ h x _ _ fun a => match a with | ⟨0, _⟩ => rfl | ⟨1, _⟩ => rfl | ⟨2, _⟩ => rfl

/-- The positional table `[1, 2048, 768]` copied to every batch: the entry at `(b, s, d)` is the operand's at `(0, s, d)`. -/
theorem bcast_1sd_bsd (h : S1x2048x768.BroadcastsInDim S16x2048x768 ![0, 1, 2]) (x : S1x2048x768.Idx → α)
    (b : Fin 16) (s : Fin 2048) (d : Fin 768) :
    broadcastInDim S16x2048x768 ![0, 1, 2] h x (ix3 b s d) = x (ix3 (0 : Fin 1) s d) :=
  broadcastInDim_apply _ h x _ _ fun a => match a with | ⟨0, _⟩ => rfl | ⟨1, _⟩ => rfl | ⟨2, _⟩ => rfl

end Reads

/-! ## The masked embedding at an index -/

/-- The masked embedding at `(b, s, d)`: the row's entry plus the bias where the id at `(b, s)` is the zero word, zero
    elsewhere. -/
theorem maskedEmbed_apply (rows : FVec Ideal S16x2048x768 .f32) (bias : FVec Ideal S768 .f32) (ids : IVec S16x2048 32)
    (b : Fin 16) (s : Fin 2048) (d : Fin 768) :
    maskedEmbed (F := Ideal) rows bias ids (ix3 b s d)
      = Scalar.select (IntOp.cmpi .eq (ids (ix2 b s)) 0#32) (rows (ix3 b s d) + bias (ix1 d)) (0 : EReal) := by
  unfold maskedEmbed
  rw [select_apply, addf_apply, bcast_bs1_bsd, bcast_bs_bs1, bcast_11d_bsd, bcast_d_11d]
  have hz : broadcastInDim S16x2048x768 ![2] bcast_S768_S16x2048x768_2
      (broadcastInDim S768 ![] bcast_S_S768 (constant (F := Ideal) S_ .f32 0x00000000#32)) (ix3 b s d) = (0 : EReal) :=
    Ideal.ofBits_zero_f32
  rw [hz]
  rfl

/-! ## The lookup where the id is zero -/

/-- Where the id is the zero word the wrapped index is the zero word: zero is not below zero, so the table's height is
    not added. -/
theorem wrapIdx_of_zero (n : BitVec 32) (ids : IVec S16x2048 32) (b : Fin 16) (s : Fin 2048)
    (h0 : ids (ix2 b s) = 0#32) : wrapIdx n ids (ix3 b s (0 : Fin 1)) = 0#32 := by
  unfold wrapIdx
  rw [bcast_bs_bs1, select_apply]
  show Scalar.select (IntOp.cmpi .slt (ids (ix2 b s)) 0#32) (IntOp.addi (ids (ix2 b s)) n) (ids (ix2 b s)) = 0#32
  rw [h0]
  have hc : IntOp.cmpi .slt (0#32 : BitVec 32) 0#32 = 0#1 := by decide
  rw [hc, select_zero]

/-- An index array that is the zero word at `(b, s, 0)` is inside the table there, whenever `0 ≤ last` signed. -/
theorem inTable_of_zero (last : BitVec 32) (hl : IntOp.cmpi .sle (0#32 : BitVec 32) last = 1#1) (idx : IVec S16x2048x1 32)
    (b : Fin 16) (s : Fin 2048) (h0 : idx (ix3 b s (0 : Fin 1)) = 0#32) : inTable last idx (ix2 b s) = 1#1 := by
  unfold inTable
  refine TakeRows.reduce_andi_eq_one_of_forall _ _ _ _ _ rfl ?_
  intro i hi
  obtain ⟨b', s', z, rfl⟩ : ∃ (b' : Fin 16) (s' : Fin 2048) (z : Fin 1), i = ix3 b' s' z := ⟨i 0, i 1, i 2, eq_ix3 i⟩
  obtain rfl : z = 0 := Subsingleton.elim _ _
  have e0 := Shape.ReducesTo.drop_apply_val_of_eq reducesTo_S16x2048x1_S16x2048_d2 (ix3 b' s' (0 : Fin 1)) 0 0
  have e1 := Shape.ReducesTo.drop_apply_val_of_eq reducesTo_S16x2048x1_S16x2048_d2 (ix3 b' s' (0 : Fin 1)) 1 1
  rw [hi] at e0 e1
  obtain rfl : b = b' := Fin.ext e0
  obtain rfl : s = s' := Fin.ext e1
  show IntOp.andi (IntOp.cmpi .sge (idx (ix3 b s (0 : Fin 1))) 0#32) (IntOp.cmpi .sle (idx (ix3 b s (0 : Fin 1))) last) = 1#1
  rw [h0, hl]
  decide

/-- `take` at a position whose id is the zero word reads row 0 of the table: the wrapped index is zero, it is inside the
    table, and the gather's clamp of zero into `[0, N − 1]` is zero. -/
theorem takeRows_of_zero {N : Nat} (hN : 0 < N)
    (wf : GatherDims.WF ⟨2, ![N, 768]⟩ ⟨3, ![16, 2048, 1]⟩ ⟨3, ![16, 2048, 768]⟩ [2] [0] [] [0] [] 2 ![1, 768])
    (n last : BitVec 32) (hl : IntOp.cmpi .sle (0#32 : BitVec 32) last = 1#1) (tbl : FVec Ideal ⟨2, ![N, 768]⟩ .f32)
    (ids : IVec S16x2048 32) (b : Fin 16) (s : Fin 2048) (d : Fin 768) (h0 : ids (ix2 b s) = 0#32) :
    takeRows (F := Ideal) (TakeRows.rowDims N 768 16 2048 wf) n last tbl ids (ix3 b s d) = tbl (ix2 (⟨0, hN⟩ : Fin N) d) := by
  have hw := wrapIdx_of_zero n ids b s h0
  unfold takeRows
  rw [select_apply, bcast_bs_bsd, inTable_of_zero last hl _ b s hw, select_one, TakeRows.gather_rows_apply hN]
  have hz : (0#32 : BitVec 32).toInt.toNat = 0 := by decide
  have hr : (⟨min (wrapIdx n ids (ix3 b s (0 : Fin 1))).toInt.toNat (N - 1), by omega⟩ : Fin N) = ⟨0, hN⟩ :=
    Fin.ext (by
      show min (wrapIdx n ids (ix3 b s (0 : Fin 1))).toInt.toNat (N - 1) = 0
      rw [hw, hz, Nat.zero_min])
  exact congrArg (fun r : Fin N => tbl (ix2 r d)) hr

/-- One masked table term of the reference at `(b, s, d)`: the indicator of the zero id times row 0 of the table plus the
    bias. Where the id is not zero both sides are zero whatever row was looked up. -/
theorem maskedTake_apply {N : Nat} (hN : 0 < N)
    (wf : GatherDims.WF ⟨2, ![N, 768]⟩ ⟨3, ![16, 2048, 1]⟩ ⟨3, ![16, 2048, 768]⟩ [2] [0] [] [0] [] 2 ![1, 768])
    (n last : BitVec 32) (hl : IntOp.cmpi .sle (0#32 : BitVec 32) last = 1#1) (tbl : FVec Ideal ⟨2, ![N, 768]⟩ .f32)
    (bias : FVec Ideal S768 .f32) (ids : IVec S16x2048 32) (b : Fin 16) (s : Fin 2048) (d : Fin 768) :
    maskedEmbed (F := Ideal) (takeRows (F := Ideal) (TakeRows.rowDims N 768 16 2048 wf) n last tbl ids) bias ids (ix3 b s d)
      = Cert.Spec.zeroInd (ids (ix2 b s)) * (tbl (ix2 (⟨0, hN⟩ : Fin N) d) + bias (ix1 d)) := by
  rw [maskedEmbed_apply, Cert.Spec.select_eq_zeroInd_mul]
  by_cases h0 : ids (ix2 b s) = 0#32
  · rw [takeRows_of_zero hN wf n last hl tbl ids b s d h0]
  · rw [Cert.Spec.zeroInd_ne h0, zero_mul, zero_mul]

/-! ## The two tables of the program -/

/-- The token term: the indicator of the zero id times `wTok[d, 0] + bTok[d]`. -/
theorem tok_apply (ids : IVec S16x2048 32) (wTok : FVec Ideal S768x32000 .f32) (bTok : FVec Ideal S768 .f32)
    (b : Fin 16) (s : Fin 2048) (d : Fin 768) :
    maskedEmbed (F := Ideal) (takeRows (F := Ideal) gather_S32000x768_S16x2048x1_S16x2048x768_2_0_n_n_0_2_1768 32000#32 31999#32
        (transpose S32000x768 [1, 0] wTok transposes_S768x32000_S32000x768_1_0) ids) bTok ids (ix3 b s d)
      = Cert.Spec.zeroInd (ids (ix2 b s)) * (wTok (ix2 d (0 : Fin 32000)) + bTok (ix1 d)) := by
  have hg : gather_S32000x768_S16x2048x1_S16x2048x768_2_0_n_n_0_2_1768 = TakeRows.rowDims 32000 768 16 2048 gather_S32000x768_S16x2048x1_S16x2048x768_2_0_n_n_0_2_1768_wf := rfl
  rw [hg, maskedTake_apply (by decide) _ _ _ (by decide), transpose_ix2_apply]
  rfl

/-- The segment term: the indicator of the zero id times `wSeg[d, 0] + bSeg[d]`. -/
theorem seg_apply (seg : IVec S16x2048 32) (wSeg : FVec Ideal S768x3 .f32) (bSeg : FVec Ideal S768 .f32)
    (b : Fin 16) (s : Fin 2048) (d : Fin 768) :
    maskedEmbed (F := Ideal) (takeRows (F := Ideal) gather_S3x768_S16x2048x1_S16x2048x768_2_0_n_n_0_2_1768 3#32 2#32
        (transpose S3x768 [1, 0] wSeg transposes_S768x3_S3x768_1_0) seg) bSeg seg (ix3 b s d)
      = Cert.Spec.zeroInd (seg (ix2 b s)) * (wSeg (ix2 d (0 : Fin 3)) + bSeg (ix1 d)) := by
  have hg : gather_S3x768_S16x2048x1_S16x2048x768_2_0_n_n_0_2_1768 = TakeRows.rowDims 3 768 16 2048 gather_S3x768_S16x2048x1_S16x2048x768_2_0_n_n_0_2_1768_wf := rfl
  rw [hg, maskedTake_apply (by decide) _ _ _ (by decide), transpose_ix2_apply]
  rfl

/-! ## The result -/

/-- The reference's result at `(b, s, d)` is the specification's. -/
theorem refOut_apply (ids seg : IVec S16x2048 32) (wTok : FVec Ideal S768x32000 .f32) (bTok : FVec Ideal S768 .f32)
    (wSeg : FVec Ideal S768x3 .f32) (bSeg : FVec Ideal S768 .f32) (pe : FVec Ideal S1x2048x768 .f32)
    (b : Fin 16) (s : Fin 2048) (d : Fin 768) :
    RefRun.refOut (F := Ideal) ids seg wTok bTok wSeg bSeg pe (ix3 b s d)
      = Cert.Spec.embedAt ids seg wTok bTok wSeg bSeg pe b s d := by
  unfold RefRun.refOut Cert.Spec.embedAt
  rw [addf_apply, addf_apply, tok_apply, seg_apply, bcast_1sd_bsd, add_comm (pe (ix3 (0 : Fin 1) s d))]

/-- THE REFERENCE COMPUTES THE SPECIFICATION: as arrays over the extended reals, for all seven arguments. -/
theorem refOut_eq (ids seg : IVec S16x2048 32) (wTok : FVec Ideal S768x32000 .f32) (bTok : FVec Ideal S768 .f32)
    (wSeg : FVec Ideal S768x3 .f32) (bSeg : FVec Ideal S768 .f32) (pe : FVec Ideal S1x2048x768 .f32) :
    RefRun.refOut (F := Ideal) ids seg wTok bTok wSeg bSeg pe = Cert.Spec.embed ids seg wTok bTok wSeg bSeg pe := by
  funext i
  obtain ⟨b, s, d, rfl⟩ : ∃ (b : Fin 16) (s : Fin 2048) (d : Fin 768), i = ix3 b s d := ⟨i 0, i 1, i 2, eq_ix3 i⟩
  rw [refOut_apply, Cert.Spec.embed_apply]

end Cert.ReferenceIdeal.RefValue

end
-- ==== Proof.lean ====
/-
  The certificate's five claims for the embedding kernel.

  Both idealized programs compute, at the position `(b, s)` and the channel `d`,

      ( pe[0, s, d]  +  [ids[b, s] = 0] · (wTok[d, 0] + bTok[d]) )  +  [seg[b, s] = 0] · (wSeg[d, 0] + bSeg[d])

  on the extended reals (`Cert.Spec.embed`). The kernel forms the indicator as a float and multiplies: its 64 blocks tile
  the output, each block entry being that sum of the arrays at the entry's own index. The reference looks a row of the
  transposed table up at the id and keeps it, plus the bias, only where the id is 0 — where the row looked up is row 0 —
  and answers the literal zero elsewhere; a select on the bit `id = 0` between `x` and `0` is the indicator times `x`,
  because `1 · x = x` and `0 · x = 0` for every extended real. The reference adds `tok + pe` where the kernel adds
  `pe + tok`; addition commutes. None of these laws needs a finite input, so the precondition is never opened.

  The three frames: the two kernels' are the launch-side and body certificates of a kernel whose body loads, computes and
  stores through literal rectangles; the reference is a straight line of host operations, and its frame is its run with
  the result dropped. The idealization rewrote no operation, so `preserves` has nothing to state.
-/
import proofs.«127489_j68899865362566_1_alg».proof.Defs
import proofs.«127489_j68899865362566_1_alg».proof.Proof.Gen.Kernel
import proofs.«127489_j68899865362566_1_alg».proof.Proof.Gen.Kernel.Skeleton
import proofs.«127489_j68899865362566_1_alg».proof.Proof.Gen.Kernel.Launch
import proofs.«127489_j68899865362566_1_alg».proof.Proof.Gen.Kernel.Points
import proofs.«127489_j68899865362566_1_alg».proof.Proof.Gen.Kernel.Frame
import proofs.«127489_j68899865362566_1_alg».proof.Proof.Gen.KernelIdeal
import proofs.«127489_j68899865362566_1_alg».proof.Proof.Gen.KernelIdeal.Skeleton
import proofs.«127489_j68899865362566_1_alg».proof.Proof.Gen.KernelIdeal.Launch
import proofs.«127489_j68899865362566_1_alg».proof.Proof.Gen.KernelIdeal.Points
import proofs.«127489_j68899865362566_1_alg».proof.Proof.Gen.KernelIdeal.Frame
import proofs.«127489_j68899865362566_1_alg».proof.Proof.Gen.ReferenceIdeal
import proofs.«127489_j68899865362566_1_alg».proof.Proof.Gen.Pre_finite_inputs
import proofs.«127489_j68899865362566_1_alg».proof.Proof.KernelHost
import proofs.«127489_j68899865362566_1_alg».proof.Proof.RefTerm
import proofs.«127489_j68899865362566_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefTerm.run (F := Ideal) m ρ)

theorem preserves : Cert.preserves_Kernel_KernelIdeal := trivial

/-- From memories that agree on the seven arguments both runs end with the output at the specification of those
    arguments. -/
theorem algebraic : Cert.algebraic_KernelIdeal_ReferenceIdeal := by
  intro m ρ m' ρ' _ hagree
  refine ⟨_, Cert.KernelIdeal.HostSide.run_spec m ρ, ?_⟩
  refine (θ_run Cert.ReferenceIdeal.defs _ _).mono (fun _ h c => ⟨(h c).1.trans ?_, (h c).2⟩)
    (Cert.ReferenceIdeal.RefTerm.run (F := Ideal) m' ρ')
  obtain ⟨h0, h1, h2, h3, h4, h5, h6⟩ := hagree c
  rw [Cert.ReferenceIdeal.RefValue.refOut_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
